-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x1600000 : Shape := ⟨2, ![2, 1600000]⟩
abbrev S1600000 : Shape := ⟨1, ![1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x512 .f32) (main_arg1 : IVec S2x1600000 32) (main_arg2 : FVec F S1600000 .f32) (main_arg3 : FVec F S512x128 .f32) (main_arg4 : FVec F S128 .f32) (main_arg5 : FVec F S128x64 .f32) (main_arg6 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x512 : Shape := ⟨2, ![50000, 512]⟩
abbrev S2x1600000 : Shape := ⟨2, ![2, 1600000]⟩
abbrev S1600000 : Shape := ⟨1, ![1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S50000x128 : Shape := ⟨2, ![50000, 128]⟩
abbrev S2000x512 : Shape := ⟨2, ![2000, 512]⟩
abbrev S2000x128 : Shape := ⟨2, ![2000, 128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S50000x64 : Shape := ⟨2, ![50000, 64]⟩
abbrev S2000x64 : Shape := ⟨2, ![2000, 64]⟩
abbrev S1600000x64 : Shape := ⟨2, ![1600000, 64]⟩
abbrev S1x64 : Shape := ⟨2, ![1, 64]⟩

abbrev nBuf : Space → Nat
  | .hbm => 58
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x1600000, .i32⟩
  | .hbm, ⟨2, _⟩ => ⟨S1600000, .f32⟩
  | .hbm, ⟨3, _⟩ => ⟨S512x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S50000x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x1, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S50000x128, .f32⟩
  | .hbm, ⟨26, _⟩ => ⟨S1600000x1, .i32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S50000x64, .f32⟩
  | .hbm, ⟨35, _⟩ => ⟨S1x1600000, .i32⟩
  | .hbm, ⟨36, _⟩ => ⟨S1600000, .i32⟩
  | .hbm, ⟨37, _⟩ => ⟨S1x1600000, .i32⟩
  | .hbm, ⟨38, _⟩ => ⟨S1600000, .i32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S1600000x1, .f32⟩
  | .hbm, ⟨49, _⟩ => ⟨S1600000x64, .f32⟩
  | .hbm, ⟨50, _⟩ => ⟨S1600000x64, .f32⟩
  | .hbm, ⟨51, _⟩ => ⟨S_, .f32⟩
  | .hbm, ⟨52, _⟩ => ⟨S50000x64, .f32⟩
  | .hbm, ⟨53, _⟩ => ⟨S1600000x1, .i32⟩
  | .hbm, ⟨54, _⟩ => ⟨S50000x64, .f32⟩
  | .hbm, ⟨55, _⟩ => ⟨S1x64, .f32⟩
  | .hbm, ⟨56, _⟩ => ⟨S50000x64, .f32⟩
  | .hbm, ⟨57, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x64, .f32⟩
  | .local _ .vmem, ⟨8, _⟩ => ⟨S2000x64, .f32⟩
  | .local _ .vmem, ⟨9, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_1 : Ref sig .tc := ⟨.hbm, 39, rfl⟩
abbrev main_v27 : Ref sig .tc := ⟨.hbm, 40, rfl⟩
abbrev main_v28 : Ref sig .tc := ⟨.hbm, 41, rfl⟩
abbrev main_c_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  slices_S2x1600000_S1x1600000_1_0 : S2x1600000.Slices ![1, 0] S1x1600000
  shapeCasts_S1x1600000_S1600000 : S1x1600000.ShapeCasts S1600000
  slices_S2x1600000_S1x1600000_0_0 : S2x1600000.Slices ![0, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S2000x512_S512x128_S2000x128_1_0_0_1_n_n_wf : DotDims.WF S2000x512 S512x128 S2000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x64_S2000x64_1_0_0_1_n_n_wf : DotDims.WF S2000x128 S128x64 S2000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x1600000 : Shape := ⟨2, ![2, 1600000]⟩
abbrev S1600000 : Shape := ⟨1, ![1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S50000x128 : Shape := ⟨2, ![50000, 128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S50000x64 : Shape := ⟨2, ![50000, 64]⟩
abbrev S1600000x64 : Shape := ⟨2, ![1600000, 64]⟩
abbrev S1x64 : Shape := ⟨2, ![1, 64]⟩

abbrev nBuf : Space → Nat
  | .hbm => 58
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x1600000, .i32⟩
  | .hbm, ⟨2, _⟩ => ⟨S1600000, .f32⟩
  | .hbm, ⟨3, _⟩ => ⟨S512x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S50000x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x1, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S50000x128, .f32⟩
  | .hbm, ⟨26, _⟩ => ⟨S1600000x1, .i32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S50000x64, .f32⟩
  | .hbm, ⟨35, _⟩ => ⟨S1x1600000, .i32⟩
  | .hbm, ⟨36, _⟩ => ⟨S1600000, .i32⟩
  | .hbm, ⟨37, _⟩ => ⟨S1x1600000, .i32⟩
  | .hbm, ⟨38, _⟩ => ⟨S1600000, .i32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S1600000x1, .f32⟩
  | .hbm, ⟨49, _⟩ => ⟨S1600000x64, .f32⟩
  | .hbm, ⟨50, _⟩ => ⟨S1600000x64, .f32⟩
  | .hbm, ⟨51, _⟩ => ⟨S_, .f32⟩
  | .hbm, ⟨52, _⟩ => ⟨S50000x64, .f32⟩
  | .hbm, ⟨53, _⟩ => ⟨S1600000x1, .i32⟩
  | .hbm, ⟨54, _⟩ => ⟨S50000x64, .f32⟩
  | .hbm, ⟨55, _⟩ => ⟨S1x64, .f32⟩
  | .hbm, ⟨56, _⟩ => ⟨S50000x64, .f32⟩
  | .hbm, ⟨57, _⟩ => ⟨S50000x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_1 : Ref sig .tc := ⟨.hbm, 39, rfl⟩
abbrev main_v27 : Ref sig .tc := ⟨.hbm, 40, rfl⟩
abbrev main_v28 : Ref sig .tc := ⟨.hbm, 41, rfl⟩
abbrev main_c_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  slices_S2x1600000_S1x1600000_0_0 : S2x1600000.Slices ![0, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x512_S512x128_S50000x128_1_0_0_1_n_n_wf : DotDims.WF S50000x512 S512x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.MatProduct.lean ====
/-
  The product of two matrices over the extended reals, entry by entry: entry (r, c) of x · w is the sum, over the
  shared axis k, of x (r, k) · w (k, c). No program is mentioned here. A product computed a block of rows at a time
  and a product computed on the whole array are both compared with this one function.
-/
import Idealize.ShloMosaic.PureOps.Ideal
import Idealize.ShloMosaic.Lib.ValueIdx

noncomputable section

namespace Cert.GraphConv

open Idealize.ShloMosaic Idealize.ShloMosaic.ValueIdx

/-- Entry `i` = (row, column) of the product of an M × K matrix `x` with a K × N matrix `w`: the sum over k < K of
    `x (row, k) * w (k, column)`, the terms taken in the order k = 0, 1, …, K - 1 of the index type. -/
def matProduct {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 ⟨(i 0).val, idx2_lt0 i⟩ k) * w (ix2 k ⟨(i 1).val, idx2_lt1 i⟩)

/-- The product at an index given by its two coordinates. -/
theorem matProduct_ix2 {M K N : Nat} (x : (⟨2, ![M, K]⟩ : Shape).Idx → EReal) (w : (⟨2, ![K, N]⟩ : Shape).Idx → EReal)
    (r : Fin M) (q : Fin N) :
    matProduct x w (ix2 r q) = ∑ k : Fin K, x (ix2 r k) * w (ix2 k q) := rfl

/-- Rows b·B … b·B + B - 1 of a product depend only on the same rows of the left factor: if `xb` is that block of rows
    of `x` (row r of the block is row b·B + r of `x`), then row r of `xb · w` is row b·B + r of `x · w`. -/
theorem matProduct_rows {M B K N : Nat} (x : (⟨2, ![M, K]⟩ : Shape).Idx → EReal) (xb : (⟨2, ![B, K]⟩ : Shape).Idx → EReal)
    (w : (⟨2, ![K, N]⟩ : Shape).Idx → EReal) (b : Nat)
    (hxb : ∀ (r : Fin B) (k : Fin K) (R : Fin M), R.val = b * B + r.val → xb (ix2 r k) = x (ix2 R k))
    (r : Fin B) (q : Fin N) (R : Fin M) (hR : R.val = b * B + r.val) :
    matProduct xb w (ix2 r q) = matProduct x w (ix2 R q) := by
  rw [matProduct_ix2, matProduct_ix2]
  exact Finset.sum_congr rfl fun k _ => by rw [hxb r k R hR]

end Cert.GraphConv

end
-- ==== Proof.Aggregate.lean ====
/-
  One graph-convolution aggregation, as both programs compute it once the feature product `s` is known: for every edge
  (target, source) with weight w, row `source` of `s` times w is added into row `target` of a zero array, and the bias
  is added to every row. The edge list is a 2 × 1600000 integer array: row 0 holds the targets, row 1 the sources; a
  negative source counts from the end (50000 is added to it). The hidden layer also passes the result through
  max(·, 0). These are the host operations, applied in the programs' order; nothing is proved about them here: both
  programs apply them to the same arguments, so only the product fed to them has to be compared.
-/
import proofs.«161501_j85864986181814_1_alg».proof.Proof.Gen.ReferenceIdeal

noncomputable section

namespace Cert.GraphConv

open Idealize.ShloMosaic Cert.ReferenceIdeal Cert.ReferenceIdeal.Gen

variable {F : FTy → Type} [FloatOps F]

/-- The edges' source rows as a column of gather indices: row 1 of the edge list, a negative entry moved up by 50000. -/
def sources (e : (⟨S2x1600000, .i32⟩ : BufTy).Contents (Elt F)) : (⟨S1600000x1, .i32⟩ : BufTy).Contents (Elt F) :=
  broadcastInDim S1600000x1 ![0] bcast_S1600000_S1600000x1_0 (select (cmpi .slt (shapeCast S1600000 (extractStridedSlice S1x1600000 ![1, 0] e slices_S2x1600000_S1x1600000_1_0) shapeCasts_S1x1600000_S1600000) (broadcastInDim S1600000 ![] bcast_S_S1600000 (constantI S_ 32 0#32))) (addi (shapeCast S1600000 (extractStridedSlice S1x1600000 ![1, 0] e slices_S2x1600000_S1x1600000_1_0) shapeCasts_S1x1600000_S1600000) (broadcastInDim S1600000 ![] bcast_S_S1600000 (constantI S_ 32 50000#32))) (shapeCast S1600000 (extractStridedSlice S1x1600000 ![1, 0] e slices_S2x1600000_S1x1600000_1_0) shapeCasts_S1x1600000_S1600000))

/-- The edges' target rows as a column of scatter indices: row 0 of the edge list. -/
def targets (e : (⟨S2x1600000, .i32⟩ : BufTy).Contents (Elt F)) : (⟨S1600000x1, .i32⟩ : BufTy).Contents (Elt F) :=
  broadcastInDim S1600000x1 ![0] bcast_S1600000_S1600000x1_0 (shapeCast S1600000 (extractStridedSlice S1x1600000 ![0, 0] e slices_S2x1600000_S1x1600000_0_0) shapeCasts_S1x1600000_S1600000)

/-- The aggregation at width 128: gather the source rows of `s`, scale each by its edge's weight, add them into the
    target rows of a zero array, add the bias to every row. -/
def aggregate128 (s : (⟨S50000x128, .f32⟩ : BufTy).Contents (Elt F)) (e : (⟨S2x1600000, .i32⟩ : BufTy).Contents (Elt F))
    (w : (⟨S1600000, .f32⟩ : BufTy).Contents (Elt F)) (b : (⟨S128, .f32⟩ : BufTy).Contents (Elt F)) : (⟨S50000x128, .f32⟩ : BufTy).Contents (Elt F) :=
  addf (Host.scatterAdd scatter_S50000x128_S1600000x1_S1600000x128_1_0_0_1 (broadcastInDim S50000x128 ![] bcast_S_S50000x128 (constant S_ .f32 0x00000000#32)) (targets e) (mulf (Host.gather gather_S50000x128_S1600000x1_S1600000x128_1_0_n_n_0_1_1128 s (sources e)) (broadcastInDim S1600000x128 ![0, 1] bcast_S1600000x1_S1600000x128_0_1 (broadcastInDim S1600000x1 ![0] bcast_S1600000_S1600000x1_0 w)))) (broadcastInDim S50000x128 ![0, 1] bcast_S1x128_S50000x128_0_1 (broadcastInDim S1x128 ![1] bcast_S128_S1x128_1 b))

/-- max(·, 0), entry by entry. -/
def relu128 (v : (⟨S50000x128, .f32⟩ : BufTy).Contents (Elt F)) : (⟨S50000x128, .f32⟩ : BufTy).Contents (Elt F) :=
  maximumf v (broadcastInDim S50000x128 ![] bcast_S_S50000x128 (constant S_ .f32 0x00000000#32))

/-- The aggregation at width 64. -/
def aggregate64 (s : (⟨S50000x64, .f32⟩ : BufTy).Contents (Elt F)) (e : (⟨S2x1600000, .i32⟩ : BufTy).Contents (Elt F))
    (w : (⟨S1600000, .f32⟩ : BufTy).Contents (Elt F)) (b : (⟨S64, .f32⟩ : BufTy).Contents (Elt F)) : (⟨S50000x64, .f32⟩ : BufTy).Contents (Elt F) :=
  addf (Host.scatterAdd scatter_S50000x64_S1600000x1_S1600000x64_1_0_0_1 (broadcastInDim S50000x64 ![] bcast_S_S50000x64 (constant S_ .f32 0x00000000#32)) (targets e) (mulf (Host.gather gather_S50000x64_S1600000x1_S1600000x64_1_0_n_n_0_1_164 s (sources e)) (broadcastInDim S1600000x64 ![0, 1] bcast_S1600000x1_S1600000x64_0_1 (broadcastInDim S1600000x1 ![0] bcast_S1600000_S1600000x1_0 w)))) (broadcastInDim S50000x64 ![0, 1] bcast_S1x64_S50000x64_0_1 (broadcastInDim S1x64 ![1] bcast_S64_S1x64_1 b))

end Cert.GraphConv

end
-- ==== Proof.Layers.lean ====
/-
  The two results as functions of the seven arguments, over the extended reals:
    hidden = max(aggregate (x · W1) + b1, 0)        (50000 × 128)
    output = aggregate (hidden · W2) + b2           (50000 × 64)
  with `·` the matrix product of `MatProduct` and `aggregate` the edge-weighted neighbourhood sum of `Aggregate`.
  The tiled kernel program and the whole-array reference are each shown to end at these two functions.
-/
import proofs.«161501_j85864986181814_1_alg».proof.Proof.MatProduct
import proofs.«161501_j85864986181814_1_alg».proof.Proof.Aggregate

noncomputable section

namespace Cert.GraphConv

open Idealize.ShloMosaic Cert.ReferenceIdeal

/-- The hidden features: the first product, aggregated over the edges, plus the first bias, through max(·, 0). -/
def hidden (x : FVec Ideal S50000x512 .f32) (W1 : FVec Ideal S512x128 .f32) (e : (⟨S2x1600000, .i32⟩ : BufTy).Contents (Elt Ideal))
    (w : FVec Ideal S1600000 .f32) (b1 : FVec Ideal S128 .f32) : FVec Ideal S50000x128 .f32 :=
  relu128 (F := Ideal) (aggregate128 (F := Ideal) (matProduct (M := 50000) (K := 512) (N := 128) x W1) e w b1)

/-- The second result: the product of the hidden features with W2, aggregated over the same edges, plus the second bias. -/
def output (x : FVec Ideal S50000x512 .f32) (W1 : FVec Ideal S512x128 .f32) (e : (⟨S2x1600000, .i32⟩ : BufTy).Contents (Elt Ideal))
    (w : FVec Ideal S1600000 .f32) (b1 : FVec Ideal S128 .f32) (W2 : FVec Ideal S128x64 .f32) (b2 : FVec Ideal S64 .f32) :
    FVec Ideal S50000x64 .f32 :=
  aggregate64 (F := Ideal) (matProduct (M := 50000) (K := 128) (N := 64) (hidden x W1 e w b1) W2) e w b2

end Cert.GraphConv

end
-- ==== Proof.RefProducts.lean ====
/-
  The reference's two feature products are the same sums: the host's general matrix product with one contracted axis,
  left axis 1 against right axis 0, read over the extended reals at entry (r, c), is the sum over k of left (r, k) times
  right (k, c) with nothing added — `matProduct`.
-/
import proofs.«161501_j85864986181814_1_alg».proof.Proof.Gen.ReferenceIdeal.Read
import proofs.«161501_j85864986181814_1_alg».proof.Proof.MatProduct

noncomputable section

namespace Cert.ReferenceIdeal.Products

open Idealize.ShloMosaic Idealize.ShloMosaic.ValueIdx Cert.ReferenceIdeal Cert.ReferenceIdeal.Gen Cert.GraphConv

/-- x · W1 on the host: 50000 × 512 times 512 × 128. -/
theorem first (x : FVec Ideal S50000x512 .f32) (w : FVec Ideal S512x128 .f32) :
    Host.dotGeneral (F := Ideal) (φ₁ := .f32) (φ₂ := .f32) dot_S50000x512_S512x128_S50000x128_1_0_0_1_n_n none x w = matProduct (M := 50000) (K := 512) (N := 128) x w := by
  funext i
  simp only [Host.dotGeneral]
  rw [Ideal.dotGeneral_apply, ← Equiv.sum_comp (contrEquiv1 dot_S50000x512_S512x128_S50000x128_1_0_0_1_n_n 512 rfl rfl).symm]
  unfold matProduct
  refine Finset.sum_congr rfl fun k _ => ?_
  have hk := contrEquiv1_symm_val dot_S50000x512_S512x128_S50000x128_1_0_0_1_n_n 512 rfl rfl k
  have el : dot_S50000x512_S512x128_S50000x128_1_0_0_1_n_n.lhsIdx i ((contrEquiv1 dot_S50000x512_S512x128_S50000x128_1_0_0_1_n_n 512 rfl rfl).symm k) = ix2 ⟨(i 0).val, idx2_lt0 i⟩ k := funext fun a => Fin.ext (by
    match a with
    | ⟨0, _⟩ => exact Read.lhs_main_v0_0 _ _
    | ⟨1, _⟩ => exact (Read.lhs_main_v0_1 _ _).trans hk)
  have er : dot_S50000x512_S512x128_S50000x128_1_0_0_1_n_n.rhsIdx i ((contrEquiv1 dot_S50000x512_S512x128_S50000x128_1_0_0_1_n_n 512 rfl rfl).symm k) = ix2 k ⟨(i 1).val, idx2_lt1 i⟩ := funext fun a => Fin.ext (by
    match a with
    | ⟨0, _⟩ => exact (Read.rhs_main_v0_0 _ _).trans hk
    | ⟨1, _⟩ => exact Read.rhs_main_v0_1 _ _)
  rw [el, er]

/-- h · W2 on the host: 50000 × 128 times 128 × 64, for any left factor `h`. -/
theorem second (h : FVec Ideal S50000x128 .f32) (w : FVec Ideal S128x64 .f32) :
    Host.dotGeneral (F := Ideal) (φ₁ := .f32) (φ₂ := .f32) dot_S50000x128_S128x64_S50000x64_1_0_0_1_n_n none h w = matProduct (M := 50000) (K := 128) (N := 64) h w := by
  funext i
  simp only [Host.dotGeneral]
  rw [Ideal.dotGeneral_apply, ← Equiv.sum_comp (contrEquiv1 dot_S50000x128_S128x64_S50000x64_1_0_0_1_n_n 128 rfl rfl).symm]
  unfold matProduct
  refine Finset.sum_congr rfl fun k _ => ?_
  have hk := contrEquiv1_symm_val dot_S50000x128_S128x64_S50000x64_1_0_0_1_n_n 128 rfl rfl k
  have el : dot_S50000x128_S128x64_S50000x64_1_0_0_1_n_n.lhsIdx i ((contrEquiv1 dot_S50000x128_S128x64_S50000x64_1_0_0_1_n_n 128 rfl rfl).symm k) = ix2 ⟨(i 0).val, idx2_lt0 i⟩ k := funext fun a => Fin.ext (by
    match a with
    | ⟨0, _⟩ => exact Read.lhs_main_v22_0 _ _
    | ⟨1, _⟩ => exact (Read.lhs_main_v22_1 _ _).trans hk)
  have er : dot_S50000x128_S128x64_S50000x64_1_0_0_1_n_n.rhsIdx i ((contrEquiv1 dot_S50000x128_S128x64_S50000x64_1_0_0_1_n_n 128 rfl rfl).symm k) = ix2 k ⟨(i 1).val, idx2_lt1 i⟩ := funext fun a => Fin.ext (by
    match a with
    | ⟨0, _⟩ => exact (Read.rhs_main_v22_0 _ _).trans hk
    | ⟨1, _⟩ => exact Read.rhs_main_v22_1 _ _)
  rw [el, er]

end Cert.ReferenceIdeal.Products

end
-- ==== Proof.FirstProduct.lean ====
/-
  The first feature product, x · W1 (50000 × 512 times 512 × 128), as the kernel computes it: 25 grid points, point t
  multiplying rows 2000·t … 2000·t + 1999 of x by the whole of W1 into a zero accumulator, the operands rounded to a
  narrower float format on the way in. Over the extended reals a change of format is the identity and adding onto zero
  changes nothing, so a point's result is the same rows of the one product `matProduct x W1`; the 25 row blocks tile
  the 50000 rows, so the array the region leaves is that product.
-/
import proofs.«161501_j85864986181814_1_alg».proof.Proof.Gen.KernelIdeal.Frame
import proofs.«161501_j85864986181814_1_alg».proof.Proof.MatProduct
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.FirstProduct

open Cert.KernelIdeal Cert.KernelIdeal.Gen Cert.GraphConv Idealize.ShloMosaic.ValueIdx

theorem hz : (![0, 0] : Fin 2 → Nat) = fun _ => 0 := funext fun a => by fin_cases a <;> rfl

/-! ## One block of rows times W1, entry by entry -/

/-- The left operand of the block product is read at (row of the output entry, k). -/
theorem lhs_row (j : S2000x128.Idx) (p : dot_S2000x512_S512x128_S2000x128_1_0_0_1_n_n.contr.Idx) :
    (dot_S2000x512_S512x128_S2000x128_1_0_0_1_n_n.lhsIdx j p 0).val = (j 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhs_k (j : S2000x128.Idx) (p : dot_S2000x512_S512x128_S2000x128_1_0_0_1_n_n.contr.Idx) :
    (dot_S2000x512_S512x128_S2000x128_1_0_0_1_n_n.lhsIdx j p 1).val = (p ⟨0, by decide⟩).val :=
  dot_S2000x512_S512x128_S2000x128_1_0_0_1_n_n.lhsIdx_val_of_single rfl j p
/-- The right operand is read at (k, column of the output entry). -/
theorem rhs_k (j : S2000x128.Idx) (p : dot_S2000x512_S512x128_S2000x128_1_0_0_1_n_n.contr.Idx) :
    (dot_S2000x512_S512x128_S2000x128_1_0_0_1_n_n.rhsIdx j p 0).val = (p ⟨0, by decide⟩).val :=
  dot_S2000x512_S512x128_S2000x128_1_0_0_1_n_n.rhsIdx_val_of_single rfl j p
theorem rhs_col (j : S2000x128.Idx) (p : dot_S2000x512_S512x128_S2000x128_1_0_0_1_n_n.contr.Idx) :
    (dot_S2000x512_S512x128_S2000x128_1_0_0_1_n_n.rhsIdx j p 1).val = (j 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- What a grid point stores, at entry (r, q) of its 2000 × 128 block: the sum over k < 512 of the loaded block of x at
    (r, k) times the loaded W1 at (k, q) — the rounding of both operands is the identity on the extended reals and the
    accumulator starts at zero. -/
theorem tile_apply (x0 : FVec Ideal S2000x512 .f32) (x1 : FVec Ideal S512x128 .f32) (r : Fin 2000) (q : Fin 128) :
    k0_pay1 (F := Ideal) x0 x1 (ix2 r q) = matProduct (M := 2000) (K := 512) (N := 128) x0 x1 (ix2 r q) := by
  unfold k0_pay1
  refine (Ideal.matmul_constant_zero_apply dot_S2000x512_S512x128_S2000x128_1_0_0_1_n_n none _ _ (ix2 r q)).trans ?_
  rw [matProduct_ix2, ← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx (ix2 r q) ((contrEquiv1 dot_S2000x512_S512x128_S2000x128_1_0_0_1_n_n 512 rfl rfl).symm k) = ix2 r k := funext fun a => Fin.ext (by
    match a with
    | ⟨0, _⟩ => exact lhs_row _ _
    | ⟨1, _⟩ => exact (lhs_k _ _).trans hk)
  have er : dot_S2000x512_S512x128_S2000x128_1_0_0_1_n_n.rhsIdx (ix2 r q) ((contrEquiv1 dot_S2000x512_S512x128_S2000x128_1_0_0_1_n_n 512 rfl rfl).symm k) = ix2 k q := funext fun a => Fin.ext (by
    match a with
    | ⟨0, _⟩ => exact (rhs_k _ _).trans hk
    | ⟨1, _⟩ => exact rhs_col _ _)
  rw [el, er]
  rfl

/-- The same against the whole arrays: if the loaded left block is rows 2000·b … of `X` and the loaded right block is
    `Wm`, the stored entry `j` is entry `i` of `X · Wm`, where `i` is `j` moved down by 2000·b rows. -/
theorem tile_entry (X : (⟨2, ![50000, 512]⟩ : Shape).Idx → EReal) (Wm : (⟨2, ![512, 128]⟩ : Shape).Idx → EReal)
    (x0 : FVec Ideal S2000x512 .f32) (x1 : FVec Ideal S512x128 .f32) (b : Nat)
    (hx0 : ∀ (r : Fin 2000) (k : Fin 512) (R : Fin 50000), R.val = b * 2000 + r.val → x0 (ix2 r k) = X (ix2 R k))
    (hx1 : ∀ y : S512x128.Idx, x1 y = Wm y)
    (j : S2000x128.Idx) (i : S50000x128.Idx) (hi0 : (i 0).val = b * 2000 + (j 0).val) (hi1 : (i 1).val = (j 1).val) :
    k0_pay1 (F := Ideal) x0 x1 j = matProduct X Wm i := by
  obtain ⟨r, q, rfl⟩ : ∃ (r : Fin 2000) (q : Fin 128), j = ix2 r q := ⟨j 0, j 1, eq_ix2 j⟩
  obtain ⟨R, Q, rfl⟩ : ∃ (R : Fin 50000) (Q : Fin 128), i = ix2 R Q := ⟨i 0, i 1, eq_ix2 i⟩
  obtain rfl : Q = q := Fin.ext hi1
  obtain rfl : x1 = Wm := funext hx1
  rw [tile_apply]
  exact matProduct_rows X x0 x1 b hx0 r Q R hi0

/-! ## From the 25 blocks to the array -/

section
variable (V : (c : Dev nD) → (b : Ref sig .tc) → Buf (Elt Ideal) ((c : Thread nD τ).loc b))

/-- Where each window's block sits at point t: the rows window and the result window at block row t, W1's window fixed. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is rows 2000·t … 2000·t + 1999 of the product of the two arrays as the region finds them. -/
theorem wrote (c : Dev nD) (t : Fin cfg0.N) :
    (dat0 V c).flushed 2 t = ((cfg0.win 2).blk t).view.read (Elt Ideal)
      (matProduct (M := 50000) (K := 512) (N := 128) (V c main_arg0) (V c main_arg3)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x128) hz]
  obtain ⟨e00, e01, e10, e11, e20, e21⟩ := idx_facts t
  funext j
  refine tile_entry (V c main_arg0) (V c main_arg3) (iblk0 V c 0 t) (iblk0 V c 1 t) t.val ?_ ?_ j (((cfg0.win 2).blk t).view.emb j) ?_ ?_
  · intro r k R hR
    show V c main_arg0 (((cfg0.win 0).blk t).view.emb (ix2 r k)) = V c main_arg0 (ix2 R k)
    refine congrArg _ (funext fun a => Fin.ext ?_)
    match a with
    | ⟨0, _⟩ => show win0_0.index t (0 : Fin 2) * 2000 + 1 * r.val = R.val; rw [e00, hR]; omega
    | ⟨1, _⟩ => show win0_0.index t (1 : Fin 2) * 512 + 1 * k.val = k.val; rw [e01]; omega
  · intro y
    show V c main_arg3 (((cfg0.win 1).blk t).view.emb y) = V c main_arg3 y
    refine congrArg _ (funext fun a => Fin.ext ?_)
    match a with
    | ⟨0, _⟩ => show win0_1.index t (0 : Fin 2) * 512 + 1 * (y 0).val = (y 0).val; rw [e10]; omega
    | ⟨1, _⟩ => show win0_1.index t (1 : Fin 2) * 128 + 1 * (y 1).val = (y 1).val; rw [e11]; omega
  · show win0_2.index t (0 : Fin 2) * 2000 + 1 * (j 0).val = t.val * 2000 + (j 0).val; rw [e20]; omega
  · show win0_2.index t (1 : Fin 2) * 128 + 1 * (j 1).val = (j 1).val; rw [e21]; omega

/-- An entry of the result array is in point t's block iff its row and column are in the block's ranges. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Every entry is written by some point: row R lies in block row R / 2000, and 50000 = 25 · 2000. -/
theorem covered (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 25 := N_0
  obtain ⟨t, ht⟩ : ∃ t : Fin cfg0.N, t.val = (i 0).val / 2000 := ⟨⟨(i 0).val / 2000, by show _ < grid0.N; rw [hN]; omega⟩, rfl⟩
  obtain ⟨-, -, -, -, e20, e21⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; rw [e20, ht]; omega
  | ⟨1, _⟩ => show win0_2.index t (1 : Fin 2) * 128 ≤ (i 1).val ∧ (i 1).val < win0_2.index t (1 : Fin 2) * 128 + 128; rw [e21]; omega

/-- The array the first region leaves: the product of the two arrays it was entered with. -/
theorem whole (c : Dev nD) :
    (dat0 V c).arrAt 2 cfg0.N = matProduct (M := 50000) (K := 512) (N := 128) (V c main_arg0) (V c main_arg3) :=
  (dat0 V c).arrAt_eq_of_cover 2 _ (fun t _ => wrote V c t) covered

end

end Cert.KernelIdeal.FirstProduct

end
-- ==== Proof.SecondProduct.lean ====
/-
  The second feature product, h · W2 (50000 × 128 times 128 × 64, h the hidden features), as the kernel computes it:
  25 grid points, point t multiplying rows 2000·t … 2000·t + 1999 of h by the whole of W2 into a zero accumulator. The
  body reshapes the loaded block to its own shape and rounds both operands to a narrower format; over the extended reals
  both are the identity and adding onto zero changes nothing, so a point's result is the same rows of the one product
  `matProduct h W2`, and the 25 row blocks tile the 50000 rows.
-/
import proofs.«161501_j85864986181814_1_alg».proof.Proof.Gen.KernelIdeal.Frame
import proofs.«161501_j85864986181814_1_alg».proof.Proof.MatProduct
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.SecondProduct

open Cert.KernelIdeal Cert.KernelIdeal.Gen Cert.GraphConv Idealize.ShloMosaic.ValueIdx

theorem hz : (![0, 0] : Fin 2 → Nat) = fun _ => 0 := funext fun a => by fin_cases a <;> rfl

/-! ## One block of rows times W2, entry by entry -/

/-- The left operand of the block product is read at (row of the output entry, k). -/
theorem lhs_row (j : S2000x64.Idx) (p : dot_S2000x128_S128x64_S2000x64_1_0_0_1_n_n.contr.Idx) :
    (dot_S2000x128_S128x64_S2000x64_1_0_0_1_n_n.lhsIdx j p 0).val = (j 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_k (j : S2000x64.Idx) (p : dot_S2000x128_S128x64_S2000x64_1_0_0_1_n_n.contr.Idx) :
    (dot_S2000x128_S128x64_S2000x64_1_0_0_1_n_n.lhsIdx j p 1).val = (p ⟨0, by decide⟩).val :=
  dot_S2000x128_S128x64_S2000x64_1_0_0_1_n_n.lhsIdx_val_of_single rfl j p
/-- The right operand is read at (k, column of the output entry). -/
theorem rhs_k (j : S2000x64.Idx) (p : dot_S2000x128_S128x64_S2000x64_1_0_0_1_n_n.contr.Idx) :
    (dot_S2000x128_S128x64_S2000x64_1_0_0_1_n_n.rhsIdx j p 0).val = (p ⟨0, by decide⟩).val :=
  dot_S2000x128_S128x64_S2000x64_1_0_0_1_n_n.rhsIdx_val_of_single rfl j p
theorem rhs_col (j : S2000x64.Idx) (p : dot_S2000x128_S128x64_S2000x64_1_0_0_1_n_n.contr.Idx) :
    (dot_S2000x128_S128x64_S2000x64_1_0_0_1_n_n.rhsIdx j p 1).val = (j 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- What a grid point stores, at entry (r, q) of its 2000 × 128 block: the sum over k < 128 of the loaded block of h at
    (r, k) times the loaded W2 at (k, q) — the reshape to the same shape and the rounding of both operands are the
    identity on the extended reals, and the accumulator starts at zero. -/
theorem tile_apply (x0 : FVec Ideal S2000x128 .f32) (x1 : FVec Ideal S128x64 .f32) (r : Fin 2000) (q : Fin 64) :
    k1_pay1 (F := Ideal) x0 x1 (ix2 r q) = matProduct (M := 2000) (K := 128) (N := 64) x0 x1 (ix2 r q) := by
  unfold k1_pay1
  refine (Ideal.matmul_constant_zero_apply dot_S2000x128_S128x64_S2000x64_1_0_0_1_n_n none _ _ (ix2 r q)).trans ?_
  rw [matProduct_ix2, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 r q) ((contrEquiv1 dot_S2000x128_S128x64_S2000x64_1_0_0_1_n_n 128 rfl rfl).symm k) = ix2 r k := funext fun a => Fin.ext (by
    match a with
    | ⟨0, _⟩ => exact lhs_row _ _
    | ⟨1, _⟩ => exact (lhs_k _ _).trans hk)
  have er : dot_S2000x128_S128x64_S2000x64_1_0_0_1_n_n.rhsIdx (ix2 r q) ((contrEquiv1 dot_S2000x128_S128x64_S2000x64_1_0_0_1_n_n 128 rfl rfl).symm k) = ix2 k q := funext fun a => Fin.ext (by
    match a with
    | ⟨0, _⟩ => exact (rhs_k _ _).trans hk
    | ⟨1, _⟩ => exact rhs_col _ _)
  rw [el, er, shapeCast_self]
  rfl

/-- The same against the whole arrays: if the loaded left block is rows 2000·b … of `X` and the loaded right block is
    `Wm`, the stored entry `j` is entry `i` of `X · Wm`, where `i` is `j` moved down by 2000·b rows. -/
theorem tile_entry (X : (⟨2, ![50000, 128]⟩ : Shape).Idx → EReal) (Wm : (⟨2, ![128, 64]⟩ : Shape).Idx → EReal)
    (x0 : FVec Ideal S2000x128 .f32) (x1 : FVec Ideal S128x64 .f32) (b : Nat)
    (hx0 : ∀ (r : Fin 2000) (k : Fin 128) (R : Fin 50000), R.val = b * 2000 + r.val → x0 (ix2 r k) = X (ix2 R k))
    (hx1 : ∀ y : S128x64.Idx, x1 y = Wm y)
    (j : S2000x64.Idx) (i : S50000x64.Idx) (hi0 : (i 0).val = b * 2000 + (j 0).val) (hi1 : (i 1).val = (j 1).val) :
    k1_pay1 (F := Ideal) x0 x1 j = matProduct X Wm i := by
  obtain ⟨r, q, rfl⟩ : ∃ (r : Fin 2000) (q : Fin 64), j = ix2 r q := ⟨j 0, j 1, eq_ix2 j⟩
  obtain ⟨R, Q, rfl⟩ : ∃ (R : Fin 50000) (Q : Fin 64), i = ix2 R Q := ⟨i 0, i 1, eq_ix2 i⟩
  obtain rfl : Q = q := Fin.ext hi1
  obtain rfl : x1 = Wm := funext hx1
  rw [tile_apply]
  exact matProduct_rows X x0 x1 b hx0 r Q R hi0

/-! ## From the 25 blocks to the array -/

section
variable (V : (c : Dev nD) → (b : Ref sig .tc) → Buf (Elt Ideal) ((c : Thread nD τ).loc b))

/-- Where each window's block sits at point t: the rows window and the result window at block row t, W2's window fixed. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is rows 2000·t … 2000·t + 1999 of the product of the two arrays as the region finds them. -/
theorem wrote (c : Dev nD) (t : Fin cfg1.N) :
    (dat1 V c).flushed 2 t = ((cfg1.win 2).blk t).view.read (Elt Ideal)
      (matProduct (M := 50000) (K := 128) (N := 64) (V c main_v21) (V c main_arg5)) := by
  show (cfg1.win 2).cut (grid1.coords t) ((dat1 V c).after 2 t) = _
  rw [after1_2]
  unfold out1_2
  rw [View.canon_unit_zero hz]
  simp only [View.ld_unit_zero (S := S2000x128) hz, View.ld_unit_zero (S := S128x64) hz]
  obtain ⟨e00, e01, e10, e11, e20, e21⟩ := idx_facts t
  funext j
  refine tile_entry (V c main_v21) (V c main_arg5) (iblk1 V c 0 t) (iblk1 V c 1 t) t.val ?_ ?_ j (((cfg1.win 2).blk t).view.emb j) ?_ ?_
  · intro r k R hR
    show V c main_v21 (((cfg1.win 0).blk t).view.emb (ix2 r k)) = V c main_v21 (ix2 R k)
    refine congrArg _ (funext fun a => Fin.ext ?_)
    match a with
    | ⟨0, _⟩ => show win1_0.index t (0 : Fin 2) * 2000 + 1 * r.val = R.val; rw [e00, hR]; omega
    | ⟨1, _⟩ => show win1_0.index t (1 : Fin 2) * 128 + 1 * k.val = k.val; rw [e01]; omega
  · intro y
    show V c main_arg5 (((cfg1.win 1).blk t).view.emb y) = V c main_arg5 y
    refine congrArg _ (funext fun a => Fin.ext ?_)
    match a with
    | ⟨0, _⟩ => show win1_1.index t (0 : Fin 2) * 128 + 1 * (y 0).val = (y 0).val; rw [e10]; omega
    | ⟨1, _⟩ => show win1_1.index t (1 : Fin 2) * 64 + 1 * (y 1).val = (y 1).val; rw [e11]; omega
  · show win1_2.index t (0 : Fin 2) * 2000 + 1 * (j 0).val = t.val * 2000 + (j 0).val; rw [e20]; omega
  · show win1_2.index t (1 : Fin 2) * 64 + 1 * (j 1).val = (j 1).val; rw [e21]; omega

/-- An entry of the result array is in point t's block iff its row and column are in the block's ranges. -/
theorem mem_blk (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v22).slice (win1_2.rect t)).set ↔ _
  rw [View.set_slice_whole, Rect.mem_set_unit]
  exact Iff.rfl

/-- Every entry is written by some point: row R lies in block row R / 2000, and 50000 = 25 · 2000. -/
theorem covered (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : grid1.N = 25 := N_1
  obtain ⟨t, ht⟩ : ∃ t : Fin cfg1.N, t.val = (i 0).val / 2000 := ⟨⟨(i 0).val / 2000, by show _ < grid1.N; rw [hN]; omega⟩, rfl⟩
  obtain ⟨-, -, -, -, e20, e21⟩ := idx_facts t
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; rw [e20, ht]; omega
  | ⟨1, _⟩ => show win1_2.index t (1 : Fin 2) * 64 ≤ (i 1).val ∧ (i 1).val < win1_2.index t (1 : Fin 2) * 64 + 64; rw [e21]; omega

/-- The array the second region leaves: the product of the two arrays it was entered with. -/
theorem whole (c : Dev nD) :
    (dat1 V c).arrAt 2 cfg1.N = matProduct (M := 50000) (K := 128) (N := 64) (V c main_v21) (V c main_arg5) :=
  (dat1 V c).arrAt_eq_of_cover 2 _ (fun t _ => wrote V c t) covered

end

end Cert.KernelIdeal.SecondProduct

end
-- ==== Proof.HostStretch.lean ====
/-
  What the kernel program's host operations leave, read over ANY contents `W` of the buffers they start from. Between
  the two products: the first aggregation (the operations from the edge list's slices to the bias sum) and max(·, 0).
  After the second product: the second aggregation. Each is the shared function of `Aggregate` applied to the contents
  of the few buffers it reads, and a buffer the operations do not write keeps its contents.
-/
import proofs.«161501_j85864986181814_1_alg».proof.Proof.Gen.KernelIdeal.Launch
import proofs.«161501_j85864986181814_1_alg».proof.Proof.Aggregate
import Idealize.ShloMosaic.Lib.StableHlo.Run

noncomputable section

namespace Cert.KernelIdeal.HostStretch

open Idealize.ShloMosaic Idealize.ShloMosaic.TcCoe Idealize.SL.Sem Idealize.ShloMosaic.StableHlo
open Cert.KernelIdeal Cert.KernelIdeal.Gen Cert.GraphConv

variable {F : FTy → Type} [FloatOps F]
variable (W : Valuation τ sig (Elt F))

/-- After the first stretch the pre-activation buffer holds the width-128 aggregation of the first product's buffer,
    the edge list, the edge weights and the first bias. -/
theorem preactivation :
    after hostOps1 W (Proc.devRef .tc main_v20)
      = aggregate128 (W (Proc.devRef .tc main_v0)) (W (Proc.devRef .tc main_arg1)) (W (Proc.devRef .tc main_arg2)) (W (Proc.devRef .tc main_arg4)) := by
  after_results_simp <;> rfl

/-- After the three operations of max(·, 0) the hidden-features buffer holds it of the pre-activation buffer. -/
theorem hidden :
    after hostOps1_1 W (Proc.devRef .tc main_v21) = relu128 (W (Proc.devRef .tc main_v20)) := by
  after_results_simp <;> rfl

/-- After the last stretch the second result's buffer holds the width-64 aggregation of the second product's buffer,
    the edge list, the edge weights and the second bias. -/
theorem output :
    after hostOps2 W (Proc.devRef .tc main_v42)
      = aggregate64 (W (Proc.devRef .tc main_v22)) (W (Proc.devRef .tc main_arg1)) (W (Proc.devRef .tc main_arg2)) (W (Proc.devRef .tc main_arg6)) := by
  after_results_simp <;> rfl

/-- The last stretch does not write the hidden features. -/
theorem output_keeps_hidden : after hostOps2 W (Proc.devRef .tc main_v21) = W (Proc.devRef .tc main_v21) := by
  after_results_simp <;> rfl

/-- Neither stretch between the products writes an argument the second half of the program reads. -/
theorem between_keeps_arg1 : after hostOps1_1 (after hostOps1 W) (Proc.devRef .tc main_arg1) = W (Proc.devRef .tc main_arg1) := by
  after_results_simp <;> rfl
theorem between_keeps_arg2 : after hostOps1_1 (after hostOps1 W) (Proc.devRef .tc main_arg2) = W (Proc.devRef .tc main_arg2) := by
  after_results_simp <;> rfl
theorem between_keeps_arg5 : after hostOps1_1 (after hostOps1 W) (Proc.devRef .tc main_arg5) = W (Proc.devRef .tc main_arg5) := by
  after_results_simp <;> rfl
theorem between_keeps_arg6 : after hostOps1_1 (after hostOps1 W) (Proc.devRef .tc main_arg6) = W (Proc.devRef .tc main_arg6) := by
  after_results_simp <;> rfl

end Cert.KernelIdeal.HostStretch

end
-- ==== Proof.KernelValue.lean ====
/-
  The kernel program's two results as functions of its arguments, over the extended reals. Its run is five segments —
  the first product's region, the host operations up to the bias sum, the three operations of max(·, 0), the second
  product's region, the last host operations — and the contents of the buffers at each boundary are a fold from the
  launch memory. Read back along that fold:
    the first region leaves x · W1 in its result array (`FirstProduct.whole`) and touches nothing else;
    the host operations then leave the hidden features, max(aggregate (x · W1) + b1, 0);
    the second region reads them as its left operand and leaves hidden · W2 (`SecondProduct.whole`);
    the last host operations leave aggregate (hidden · W2) + b2, and do not write the hidden features.
  So the run ends with the two result buffers at `hidden` and `output` of the launch contents of the arguments.
-/
import proofs.«161501_j85864986181814_1_alg».proof.Proof.Gen.KernelIdeal.Frame
import proofs.«161501_j85864986181814_1_alg».proof.Proof.FirstProduct
import proofs.«161501_j85864986181814_1_alg».proof.Proof.SecondProduct
import proofs.«161501_j85864986181814_1_alg».proof.Proof.HostStretch
import proofs.«161501_j85864986181814_1_alg».proof.Proof.Layers
import Idealize.ShloMosaic.Lib.Pipeline.Value

set_option maxRecDepth 16384

noncomputable section

namespace Cert.KernelIdeal.Values

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.GraphConv

local notation "𝕄" => MT nD τ sig Unit (Elt Ideal) ℕ (UR sig nD τ) ℕ

variable (m : (ℓ : Loc nD τ sig) → Buf (Elt Ideal) ℓ) (ρ : Dev nD → PrngReg)

/-! ## After the first region -/

/-- The first region's result array holds x · W1 of the launch contents. -/
theorem product1 (c : Dev nD) :
    W1 m ρ c (Proc.devRef .tc main_v0)
      = matProduct (M := 50000) (K := 512) (N := 128) (m ((c : Thread nD τ).loc main_arg0)) (m ((c : Thread nD τ).loc main_arg3)) :=
  (W1_arr m ρ c 2).trans (FirstProduct.whole (V0 m ρ) c)

/-- A buffer that is none of the first region's three arrays holds its launch contents. -/
theorem kept1 (c : Dev nD) (b : Ref sig .tc) (hb : ∀ w, Pipeline.arrRef spec0 w ≠ b) :
    W1 m ρ c (Proc.devRef .tc b) = m ((c : Thread nD τ).loc b) :=
  W1_of_ne m ρ c b hb

/-! ## Between the regions -/

/-- The hidden features, as the second region finds them. -/
theorem hidden3 (c : Dev nD) : W3 m ρ c (Proc.devRef .tc main_v21) = hidden (m ((c : Thread nD τ).loc main_arg0)) (m ((c : Thread nD τ).loc main_arg3)) (m ((c : Thread nD τ).loc main_arg1)) (m ((c : Thread nD τ).loc main_arg2)) (m ((c : Thread nD τ).loc main_arg4)) := by
  show StableHlo.after hostOps1_1 (StableHlo.after hostOps1 (W1 m ρ c)) (Proc.devRef .tc main_v21) = _
  rw [HostStretch.hidden, HostStretch.preactivation, product1 m ρ c, kept1 m ρ c main_arg1 (by decide),
    kept1 m ρ c main_arg2 (by decide), kept1 m ρ c main_arg4 (by decide)]
  rfl

theorem arg1_3 (c : Dev nD) : W3 m ρ c (Proc.devRef .tc main_arg1) = m ((c : Thread nD τ).loc main_arg1) := by
  show StableHlo.after hostOps1_1 (StableHlo.after hostOps1 (W1 m ρ c)) (Proc.devRef .tc main_arg1) = _
  rw [HostStretch.between_keeps_arg1]; exact kept1 m ρ c main_arg1 (by decide)
theorem arg2_3 (c : Dev nD) : W3 m ρ c (Proc.devRef .tc main_arg2) = m ((c : Thread nD τ).loc main_arg2) := by
  show StableHlo.after hostOps1_1 (StableHlo.after hostOps1 (W1 m ρ c)) (Proc.devRef .tc main_arg2) = _
  rw [HostStretch.between_keeps_arg2]; exact kept1 m ρ c main_arg2 (by decide)
theorem arg5_3 (c : Dev nD) : W3 m ρ c (Proc.devRef .tc main_arg5) = m ((c : Thread nD τ).loc main_arg5) := by
  show StableHlo.after hostOps1_1 (StableHlo.after hostOps1 (W1 m ρ c)) (Proc.devRef .tc main_arg5) = _
  rw [HostStretch.between_keeps_arg5]; exact kept1 m ρ c main_arg5 (by decide)
theorem arg6_3 (c : Dev nD) : W3 m ρ c (Proc.devRef .tc main_arg6) = m ((c : Thread nD τ).loc main_arg6) := by
  show StableHlo.after hostOps1_1 (StableHlo.after hostOps1 (W1 m ρ c)) (Proc.devRef .tc main_arg6) = _
  rw [HostStretch.between_keeps_arg6]; exact kept1 m ρ c main_arg6 (by decide)

/-! ## After the second region -/

/-- The second region's result array holds hidden · W2. -/
theorem product2 (c : Dev nD) :
    W4 m ρ c (Proc.devRef .tc main_v22)
      = matProduct (M := 50000) (K := 128) (N := 64) (hidden (m ((c : Thread nD τ).loc main_arg0)) (m ((c : Thread nD τ).loc main_arg3)) (m ((c : Thread nD τ).loc main_arg1)) (m ((c : Thread nD τ).loc main_arg2)) (m ((c : Thread nD τ).loc main_arg4))) (m ((c : Thread nD τ).loc main_arg5)) := by
  refine (W4_arr m ρ c 2).trans ((SecondProduct.whole (V3 m ρ) c).trans ?_)
  show matProduct (M := 50000) (K := 128) (N := 64) (W3 m ρ c (Proc.devRef .tc main_v21)) (W3 m ρ c (Proc.devRef .tc main_arg5)) = _
  rw [hidden3 m ρ c, arg5_3 m ρ c]

/-- The hidden features are the second region's left operand: an input array, left as it was found. -/
theorem hidden4 (c : Dev nD) : W4 m ρ c (Proc.devRef .tc main_v21) = hidden (m ((c : Thread nD τ).loc main_arg0)) (m ((c : Thread nD τ).loc main_arg3)) (m ((c : Thread nD τ).loc main_arg1)) (m ((c : Thread nD τ).loc main_arg2)) (m ((c : Thread nD τ).loc main_arg4)) :=
  (W4_arr m ρ c 0).trans (((dat1 (V3 m ρ) c).arrAt_in 0 rfl _).trans ((A_eq1 (V3 m ρ) c 0).trans (hidden3 m ρ c)))

theorem arg1_4 (c : Dev nD) : W4 m ρ c (Proc.devRef .tc main_arg1) = m ((c : Thread nD τ).loc main_arg1) :=
  (W4_of_ne m ρ c main_arg1 (by decide)).trans (arg1_3 m ρ c)
theorem arg2_4 (c : Dev nD) : W4 m ρ c (Proc.devRef .tc main_arg2) = m ((c : Thread nD τ).loc main_arg2) :=
  (W4_of_ne m ρ c main_arg2 (by decide)).trans (arg2_3 m ρ c)
theorem arg6_4 (c : Dev nD) : W4 m ρ c (Proc.devRef .tc main_arg6) = m ((c : Thread nD τ).loc main_arg6) :=
  (W4_of_ne m ρ c main_arg6 (by decide)).trans (arg6_3 m ρ c)

/-! ## At the return -/

/-- The first result: the hidden features. -/
theorem result1 (c : Dev nD) : W5 m ρ c (Proc.devRef .tc main_v21) = hidden (m ((c : Thread nD τ).loc main_arg0)) (m ((c : Thread nD τ).loc main_arg3)) (m ((c : Thread nD τ).loc main_arg1)) (m ((c : Thread nD τ).loc main_arg2)) (m ((c : Thread nD τ).loc main_arg4)) := by
  show StableHlo.after hostOps2 (W4 m ρ c) (Proc.devRef .tc main_v21) = _
  rw [HostStretch.output_keeps_hidden]; exact hidden4 m ρ c

/-- The second result. -/
theorem result2 (c : Dev nD) : W5 m ρ c (Proc.devRef .tc main_v42) = output (m ((c : Thread nD τ).loc main_arg0)) (m ((c : Thread nD τ).loc main_arg3)) (m ((c : Thread nD τ).loc main_arg1)) (m ((c : Thread nD τ).loc main_arg2)) (m ((c : Thread nD τ).loc main_arg4)) (m ((c : Thread nD τ).loc main_arg5)) (m ((c : Thread nD τ).loc main_arg6)) := by
  show StableHlo.after hostOps2 (W4 m ρ c) (Proc.devRef .tc main_v42) = _
  rw [HostStretch.output, product2 m ρ c, arg1_4 m ρ c, arg2_4 m ρ c, arg6_4 m ρ c]
  rfl

/-! ## The run -/

-- the launch theorem for a program cut into segments finds its implicit arguments by unifying its conclusion with this
-- statement, which takes unfolding plain definitions in a metavariable's type
set_option backward.isDefEq.respectTransparency.types false in
/-- Every weakly fair execution of the kernel program from a memory with zero counters terminates without a fault, and
    ends with the first result buffer at `hidden` and the second at `output` of the launch contents of the arguments,
    the arguments unchanged: the segments' launch theorem, with the final thread state — every unscoped buffer at the
    last boundary's contents — read at the two result buffers (`result1`, `result2`) as well as at the arguments. -/
theorem run : θ_run defs (onTc (τ := τ) (main (F := Ideal))) ⟨m, fun _ => 0, ρ⟩ (fun r => ∀ c : Dev nD,
      r.2.mem ((c.tc : Thread nD τ).loc main_v21) = hidden (m ((c.tc : Thread nD τ).loc main_arg0)) (m ((c.tc : Thread nD τ).loc main_arg3)) (m ((c.tc : Thread nD τ).loc main_arg1)) (m ((c.tc : Thread nD τ).loc main_arg2)) (m ((c.tc : Thread nD τ).loc main_arg4))
      ∧ r.2.mem ((c.tc : Thread nD τ).loc main_v42) = output (m ((c.tc : Thread nD τ).loc main_arg0)) (m ((c.tc : Thread nD τ).loc main_arg3)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v21 (by decide))).trans (result1 m ρ c),
       (h c _ (mem_uc main_v42 (by decide))).trans (result2 m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.Values

end
-- ==== Proof.lean ====
/-
  The claim: the tiled two-layer graph convolution and its whole-array reference compute the same two results over the
  extended reals.

  Both programs are the same sequence of host operations — slice the edge list into targets and sources, gather the source
  rows of a feature product, scale by the edge weights, add into the target rows, add the bias; max(·, 0) after the first
  layer — around two feature products, x · W1 and hidden · W2. The reference takes each product whole. The kernel program
  takes each 2000 rows at a time, 25 times, into a zero accumulator, rounding the operands to a narrower float format
  first. Over the extended reals the rounding is the identity, adding onto zero changes nothing, and rows 2000·t … of a
  product depend only on the same rows of the left factor; the 25 blocks tile the 50000 rows. So each tiled product is the
  whole product (`FirstProduct.whole`, `SecondProduct.whole`), entry by entry the same sum over k in the same order, and
  the host operations are applied to equal arrays. No distributive law, cancellation or reordering of a sum is used, so the
  finiteness of the inputs is never needed.

  The kernel program's run with both results named is `Cert.KernelIdeal.Values.run`; the reference's run is the generated
  one, its two result terms rewritten to the same functions `hidden` and `output` by `Products.first` / `Products.second`.
  The idealization rewrote no operation, so there is nothing to preserve; the three frames are the runs with the results
  dropped.
-/
import proofs.«161501_j85864986181814_1_alg».proof.Defs
import proofs.«161501_j85864986181814_1_alg».proof.Proof.Gen.Kernel
import proofs.«161501_j85864986181814_1_alg».proof.Proof.Gen.Kernel.Frame
import proofs.«161501_j85864986181814_1_alg».proof.Proof.Gen.KernelIdeal
import proofs.«161501_j85864986181814_1_alg».proof.Proof.Gen.KernelIdeal.Frame
import proofs.«161501_j85864986181814_1_alg».proof.Proof.Gen.ReferenceIdeal
import proofs.«161501_j85864986181814_1_alg».proof.Proof.Gen.ReferenceIdeal.Run
import proofs.«161501_j85864986181814_1_alg».proof.Proof.Gen.ReferenceIdeal.Read
import proofs.«161501_j85864986181814_1_alg».proof.Proof.Gen.Pre_finite_inputs
import proofs.«161501_j85864986181814_1_alg».proof.Proof.Layers
import proofs.«161501_j85864986181814_1_alg».proof.Proof.RefProducts
import proofs.«161501_j85864986181814_1_alg».proof.Proof.KernelValue
import Idealize.ShloMosaic.Adequacy
import Idealize.ShloMosaic.Init

noncomputable section

namespace Cert.Proof

open Idealize.ShloMosaic Idealize.ShloMosaic.TcCoe Idealize.SL.Sem Cert.GraphConv

/-! ## The reference's two result terms -/

section
open Cert.ReferenceIdeal Cert.ReferenceIdeal.Gen

/-- The reference's first result — max(·, 0) of the aggregation of the host's product x · W1 — is `hidden`. -/
theorem reference_hidden (x : FVec Ideal S50000x512 .f32) (W1 : FVec Ideal S512x128 .f32) (e : (⟨S2x1600000, .i32⟩ : BufTy).Contents (Elt Ideal))
    (w : FVec Ideal S1600000 .f32) (b1 : FVec Ideal S128 .f32) :
    relu128 (F := Ideal) (aggregate128 (F := Ideal) (Host.dotGeneral (F := Ideal) (φ₁ := .f32) (φ₂ := .f32) dot_S50000x512_S512x128_S50000x128_1_0_0_1_n_n none x W1) e w b1)
      = hidden x W1 e w b1 := by
  rw [Cert.ReferenceIdeal.Products.first]; rfl

/-- The reference's second result — the aggregation of the host's product of its first result with W2 — is `output`. -/
theorem reference_output (x : FVec Ideal S50000x512 .f32) (W1 : FVec Ideal S512x128 .f32) (e : (⟨S2x1600000, .i32⟩ : BufTy).Contents (Elt Ideal))
    (w : FVec Ideal S1600000 .f32) (b1 : FVec Ideal S128 .f32) (W2 : FVec Ideal S128x64 .f32) (b2 : FVec Ideal S64 .f32) :
    aggregate64 (F := Ideal) (Host.dotGeneral (F := Ideal) (φ₁ := .f32) (φ₂ := .f32) dot_S50000x128_S128x64_S50000x64_1_0_0_1_n_n none
        (relu128 (F := Ideal) (aggregate128 (F := Ideal) (Host.dotGeneral (F := Ideal) (φ₁ := .f32) (φ₂ := .f32) dot_S50000x512_S512x128_S50000x128_1_0_0_1_n_n none x W1) e w b1)) W2) e w b2
      = output x W1 e w b1 W2 b2 := by
  rw [reference_hidden, Cert.ReferenceIdeal.Products.second]; rfl

end

/-! ## The claims -/

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the seven arguments both programs end with the two result buffers at `hidden` and
    `output` of those arguments. -/
theorem algebraic : Cert.algebraic_KernelIdeal_ReferenceIdeal := by
  intro m ρ m' ρ' _ hagree
  refine ⟨_, _, Cert.KernelIdeal.Values.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [a0, a1, a2, a3, a4]
    exact reference_hidden _ _ _ _ _
  · obtain ⟨a0, a1, a2, a3, a4, a5, a6⟩ := hagree c
    rw [a0, a1, a2, a3, a4, a5, a6]
    exact reference_output _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
